-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S1600000 32) (main_arg4 : IVec S1600000 32) (main_arg5 : IVec S100000 1) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S100000x1 : Shape := ⟨2, ![100000, 1]⟩
abbrev S2000x128 : Shape := ⟨2, ![2000, 128]⟩
abbrev S2000x1 : Shape := ⟨2, ![2000, 1]⟩
abbrev S_ : Shape := ⟨0, ![]⟩
abbrev S1600000x1 : Shape := ⟨2, ![1600000, 1]⟩
abbrev S20000 : Shape := ⟨1, ![20000]⟩
abbrev S1600000x128 : Shape := ⟨2, ![1600000, 128]⟩
abbrev S20000x128 : Shape := ⟨2, ![20000, 128]⟩
abbrev S20000x1 : Shape := ⟨2, ![20000, 1]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 74
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S100000, .i1⟩
  | .hbm, ⟨6, _⟩ => ⟨S100000, .i1⟩
  | .hbm, ⟨7, _⟩ => ⟨S100000, .f32⟩
  | .hbm, ⟨8, _⟩ => ⟨S100000x1, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S20000, .f32⟩
  | .hbm, ⟨21, _⟩ => ⟨S1600000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S20000x128, .f32⟩
  | .hbm, ⟨37, _⟩ => ⟨S1600000x1, .i32⟩
  | .hbm, ⟨38, _⟩ => ⟨S20000x128, .f32⟩
  | .hbm, ⟨39, _⟩ => ⟨S20000x1, .f32⟩
  | .hbm, ⟨40, _⟩ => ⟨S20000x128, .f32⟩
  | .hbm, ⟨41, _⟩ => ⟨S20000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S_, .f32⟩
  | .hbm, ⟨52, _⟩ => ⟨S20000, .f32⟩
  | .hbm, ⟨53, _⟩ => ⟨S1600000x1, .i32⟩
  | .hbm, ⟨54, _⟩ => ⟨S20000, .f32⟩
  | .hbm, ⟨55, _⟩ => ⟨S20000, .f32⟩
  | .hbm, ⟨56, _⟩ => ⟨S20000x1, .f32⟩
  | .hbm, ⟨57, _⟩ => ⟨S20000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x1, .f32⟩
  | .hbm, ⟨72, _⟩ => ⟨S1x128, .f32⟩
  | .hbm, ⟨73, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S4000x1, .f32⟩
  | .local _ .vmem, ⟨10, _⟩ => ⟨S4000x1, .f32⟩
  | .local _ .vmem, ⟨11, _⟩ => ⟨S4000x128, .f32⟩
  | .local _ .vmem, ⟨12, _⟩ => ⟨S4000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  shapeCasts_S20000_S20000x1 : S20000.ShapeCasts S20000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S20000x1.size a
  hwx1_2 : ∀ i : grid1.Coords, EltTy.bits .f32 = 32 ∨ (Rect.block (s := S20000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S20000x128.size a
  hwx1_3 : ∀ i : grid1.Coords, EltTy.bits .f32 = 32 ∨ (Rect.block (s := S20000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S100000 : Shape := ⟨1, ![100000]⟩
abbrev S100000x1 : Shape := ⟨2, ![100000, 1]⟩
abbrev S_ : Shape := ⟨0, ![]⟩
abbrev S1600000x1 : Shape := ⟨2, ![1600000, 1]⟩
abbrev S20000 : Shape := ⟨1, ![20000]⟩
abbrev S1600000x128 : Shape := ⟨2, ![1600000, 128]⟩
abbrev S20000x128 : Shape := ⟨2, ![20000, 128]⟩
abbrev S20000x1 : Shape := ⟨2, ![20000, 1]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S100000, .i1⟩
  | .hbm, ⟨6, _⟩ => ⟨S100000, .i1⟩
  | .hbm, ⟨7, _⟩ => ⟨S100000, .f32⟩
  | .hbm, ⟨8, _⟩ => ⟨S100000x1, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S20000, .f32⟩
  | .hbm, ⟨22, _⟩ => ⟨S1600000x1, .i32⟩
  | .hbm, ⟨23, _⟩ => ⟨S20000, .f32⟩
  | .hbm, ⟨24, _⟩ => ⟨S_, .f32⟩
  | .hbm, ⟨25, _⟩ => ⟨S20000, .f32⟩
  | .hbm, ⟨26, _⟩ => ⟨S20000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S20000x128, .f32⟩
  | .hbm, ⟨38, _⟩ => ⟨S1600000x1, .i32⟩
  | .hbm, ⟨39, _⟩ => ⟨S20000x128, .f32⟩
  | .hbm, ⟨40, _⟩ => ⟨S20000x1, .f32⟩
  | .hbm, ⟨41, _⟩ => ⟨S20000x128, .f32⟩
  | .hbm, ⟨42, _⟩ => ⟨S20000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S_, .f32⟩
  | .hbm, ⟨53, _⟩ => ⟨S20000, .f32⟩
  | .hbm, ⟨54, _⟩ => ⟨S1600000x1, .i32⟩
  | .hbm, ⟨55, _⟩ => ⟨S20000, .f32⟩
  | .hbm, ⟨56, _⟩ => ⟨S20000, .f32⟩
  | .hbm, ⟨57, _⟩ => ⟨S20000x128, .f32⟩
  | .hbm, ⟨58, _⟩ => ⟨S20000, .f32⟩
  | .hbm, ⟨59, _⟩ => ⟨S20000x1, .f32⟩
  | .hbm, ⟨60, _⟩ => ⟨S20000x128, .f32⟩
  | .hbm, ⟨61, _⟩ => ⟨S20000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S20000 : S_.BroadcastsInDim S20000 (![] : Fin 0 → Fin S20000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  scatter_S20000_S1600000x1_S1600000_n_0_0_1_wf : ScatterDims.WF S20000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S20000x128_S1600000x1_S1600000x128_1_0_0_1_wf : ScatterDims.WF S20000x128 S1600000x1 S1600000x128 [1] [0] [0] 1
  gather_S100000_S1600000x1_S1600000_n_0_n_n_0_1_1_wf : GatherDims.WF S100000 S1600000x1 S1600000 [] [0] [] [0] [] 1 ![1]
  dot_S20000x128_S128x128_S20000x128_1_0_0_1_n_n_wf : DotDims.WF S20000x128 S128x128 S20000x128 [1] [0] [0] [1] [] []
  gather_S20000x128_S1600000x1_S1600000x128_1_0_n_n_0_1_1128_wf : GatherDims.WF S20000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S20000x128_S1600000x1_S1600000x128_1_0_0_1 : ScatterDims S20000x128 S1600000x1 S1600000x128 where
  updateWindowDims := [1]
  insertedWindowDims := [0]
  scatterDimsToOperandDims := [0]
  indexVectorDim := 1
  wf := scatter_S20000x128_S1600000x1_S1600000x128_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1600000x1_S1600000x128_1_0_n_n_0_1_1128 : GatherDims S20000x128 S1600000x1 S1600000x128 where
  offsetDims := [1]
  collapsedSliceDims := [0]
  operandBatchingDims := []
  startIndicesBatchingDims := []
  startIndexMap := [0]
  indexVectorDim := 1
  sliceSizes := ![1, 128]
  wf := gather_S20000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with its result named. The program is three pallas regions among three stretches of host
  operations; its buffers after the last region are the fold `Gen.W6` (each stretch's operations applied in order, each
  region's arrays at what its write-backs leave). Every weakly fair execution terminates without a fault in a state
  where the result buffer holds that fold's value and the six argument arrays are as launched.
-/
import proofs.«153527_j56281251446890_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the fold's value, the arguments as launched. -/
theorem run : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.Spec.lean ====
/-
  The three dense stages of the hypergraph convolution, each as one function of whole arrays over the extended reals.
  Rows are nodes (100000) or hyperedges (20000), columns are the 128 features.

  * `maskRows x s`      — every row of `x` scaled by that row's entry of the column `s` (the knocked-out nodes have 0 there);
  * `edgeMsg h w d`     — the product of the hyperedge features `h` with the weight matrix `w`, every row scaled by the
                          reciprocal square root of that hyperedge's entry of the column `d`;
  * `nodeOut agg dv b`  — every row of the aggregated messages scaled by the reciprocal square root of the node's
                          degree, plus the bias row `b`.
-/
import Idealize.ShloMosaic.PureOps.Ideal
import Idealize.ShloMosaic.Lib.ValueIdx

noncomputable section

namespace Cert.Spec

open Idealize.ShloMosaic Idealize.ShloMosaic.ValueIdx

/-- `x[r, c] · s[r, 0]`. -/
def maskRows (x : (⟨2, ![100000, 128]⟩ : Shape).Idx → EReal) (s : (⟨2, ![100000, 1]⟩ : Shape).Idx → EReal) :
    (⟨2, ![100000, 128]⟩ : Shape).Idx → EReal :=
  fun i => x i * s (ix2 (⟨(i 0).val, (i 0).isLt⟩ : Fin 100000) (0 : Fin 1))

/-- `(Σ_k h[r, k] · w[k, c]) · rsqrt(d[r, 0])`. -/
def edgeMsg (h : (⟨2, ![20000, 128]⟩ : Shape).Idx → EReal) (w : (⟨2, ![128, 128]⟩ : Shape).Idx → EReal)
    (d : (⟨2, ![20000, 1]⟩ : Shape).Idx → EReal) : (⟨2, ![20000, 128]⟩ : Shape).Idx → EReal :=
  fun i => (∑ k : Fin 128, h (ix2 (⟨(i 0).val, (i 0).isLt⟩ : Fin 20000) k) * w (ix2 k (⟨(i 1).val, (i 1).isLt⟩ : Fin 128)))
    * Ideal.rsqrt (d (ix2 (⟨(i 0).val, (i 0).isLt⟩ : Fin 20000) (0 : Fin 1)))

/-- `rsqrt(dv[r, 0]) · agg[r, c] + b[0, c]`. -/
def nodeOut (agg : (⟨2, ![100000, 128]⟩ : Shape).Idx → EReal) (dv : (⟨2, ![100000, 1]⟩ : Shape).Idx → EReal)
    (b : (⟨2, ![1, 128]⟩ : Shape).Idx → EReal) : (⟨2, ![100000, 128]⟩ : Shape).Idx → EReal :=
  fun i => Ideal.rsqrt (dv (ix2 (⟨(i 0).val, (i 0).isLt⟩ : Fin 100000) (0 : Fin 1))) * agg i
    + b (ix2 (0 : Fin 1) (⟨(i 1).val, (i 1).isLt⟩ : Fin 128))

end Cert.Spec

end
-- ==== Proof.RefStages.lean ====
/-
  The reference's three dense stages are the specification's functions.

  The reference computes, on whole arrays: the masked features `x · s` with `s` the 0/1 column of the nodes kept;
  the hyperedge messages `(h W) · rsqrt(d)` row by row; the output `rsqrt(dv) · agg + b`. Each is read here at an index
  through the reference's own broadcasts, and is `Cert.Spec.maskRows` / `edgeMsg` / `nodeOut` of the same operands, the
  column (or row) operand given as ANY array whose entries are the reference's vector entries — so the kernel's
  reshaped columns fit.
-/
import proofs.«153527_j56281251446890_1_alg».proof.Proof.Gen.ReferenceIdeal.Read
import proofs.«153527_j56281251446890_1_alg».proof.Proof.Spec

noncomputable section

namespace Cert.ReferenceIdeal.Stages

open Idealize.ShloMosaic Idealize.ShloMosaic.ValueIdx Cert.ReferenceIdeal Cert.ReferenceIdeal.Read

/-- Masked features: `x[r, c] · s[r]`, the column `s` any `[100000, 1]` array with the entries of the kept-node vector. -/
theorem mask_stage (x0 : (⟨S100000x128, .f32⟩ : BufTy).Contents (Elt Ideal)) (x5 : (⟨S100000, .i1⟩ : BufTy).Contents (Elt Ideal))
    (s : (⟨2, ![100000, 1]⟩ : Shape).Idx → EReal)
    (hs : ∀ p : Fin 100000, s (ix2 p (0 : Fin 1)) = val_main_v1 (F := Ideal) x5 (ix1 p)) :
    Cert.Spec.maskRows x0 s = val_main_v4 (F := Ideal) x0 x5 := by
  funext i
  rw [val_main_v4_apply, val_main_v3_apply, val_main_v2_apply]
  unfold Cert.Spec.maskRows
  rw [hs]
  have e : idx_main_v2 (idx_main_v3 i) = ix1 (⟨(i 0).val, (i 0).isLt⟩ : Fin 100000) :=
    funext fun a => match a with | ⟨0, _⟩ => rfl
  rw [e]
  rfl

/-- Hyperedge messages: `(Σ_k h[r, k] · w[k, c]) · rsqrt(d[r])`, the column `d` any `[20000, 1]` array with the entries of
    the hyperedge normalizer. -/
theorem edge_stage (x0 : (⟨S100000x128, .f32⟩ : BufTy).Contents (Elt Ideal)) (x1 : (⟨S128x128, .f32⟩ : BufTy).Contents (Elt Ideal))
    (x3 x4 : (⟨S1600000, .i32⟩ : BufTy).Contents (Elt Ideal)) (x5 : (⟨S100000, .i1⟩ : BufTy).Contents (Elt Ideal))
    (d : (⟨2, ![20000, 1]⟩ : Shape).Idx → EReal)
    (hd : ∀ p : Fin 20000, d (ix2 p (0 : Fin 1)) = val_main_v39 (F := Ideal) x3 x4 (ix1 p)) :
    Cert.Spec.edgeMsg (val_main_v28 (F := Ideal) x0 x3 x4 x5) x1 d = val_main_v44 (F := Ideal) x0 x1 x3 x4 x5 := by
  funext i
  rw [val_main_v44_apply, val_main_v40_apply, val_main_v43_apply, val_main_v42_apply, val_main_v41_apply]
  unfold Cert.Spec.edgeMsg
  rw [hd]
  have e : idx_main_v42 (idx_main_v43 i) = ix1 (⟨(i 0).val, (i 0).isLt⟩ : Fin 20000) :=
    funext fun a => match a with | ⟨0, _⟩ => rfl
  have el : ∀ k : Fin 128, lidx_main_v40 i k = ix2 (⟨(i 0).val, (i 0).isLt⟩ : Fin 20000) k :=
    fun k => funext fun a => match a with | ⟨0, _⟩ => rfl | ⟨1, _⟩ => rfl
  have er : ∀ k : Fin 128, ridx_main_v40 i k = ix2 k (⟨(i 1).val, (i 1).isLt⟩ : Fin 128) :=
    fun k => funext fun a => match a with | ⟨0, _⟩ => rfl | ⟨1, _⟩ => rfl
  rw [e]
  simp only [el, er, Ideal.mulf_def, Ideal.hostUnary_rsqrt_def]

/-- Node output: `rsqrt(dv[r]) · agg[r, c] + b[c]`, the column `dv` any `[100000, 1]` array with the node degrees' entries, the
    row `b` any `[1, 128]` array with the bias' entries. -/
theorem node_stage (x0 : (⟨S100000x128, .f32⟩ : BufTy).Contents (Elt Ideal)) (x1 : (⟨S128x128, .f32⟩ : BufTy).Contents (Elt Ideal))
    (x2 : (⟨S128, .f32⟩ : BufTy).Contents (Elt Ideal))
    (x3 x4 : (⟨S1600000, .i32⟩ : BufTy).Contents (Elt Ideal)) (x5 : (⟨S100000, .i1⟩ : BufTy).Contents (Elt Ideal))
    (dv : (⟨2, ![100000, 1]⟩ : Shape).Idx → EReal) (b : (⟨2, ![1, 128]⟩ : Shape).Idx → EReal)
    (hdv : ∀ p : Fin 100000, dv (ix2 p (0 : Fin 1)) = val_main_v10 (F := Ideal) x3 (ix1 p))
    (hb : ∀ q : Fin 128, b (ix2 (0 : Fin 1) q) = x2 (ix1 q)) :
    Cert.Spec.nodeOut (val_main_v54 (F := Ideal) x0 x1 x3 x4 x5) dv b = val_main_v61 (F := Ideal) x0 x1 x2 x3 x4 x5 := by
  funext i
  rw [val_main_v61_apply, val_main_v58_apply, val_main_v57_apply, val_main_v56_apply, val_main_v55_apply,
    val_main_v60_apply, val_main_v59_apply]
  unfold Cert.Spec.nodeOut
  rw [hdv, hb]
  have e : idx_main_v56 (idx_main_v57 i) = ix1 (⟨(i 0).val, (i 0).isLt⟩ : Fin 100000) :=
    funext fun a => match a with | ⟨0, _⟩ => rfl
  have e' : idx_main_v59 (idx_main_v60 i) = ix1 (⟨(i 1).val, (i 1).isLt⟩ : Fin 128) :=
    funext fun a => match a with | ⟨0, _⟩ => rfl
  rw [e, e']
  simp only [Ideal.addf_def, Ideal.mulf_def, Ideal.hostUnary_rsqrt_def]

end Cert.ReferenceIdeal.Stages

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.MaskValue.lean ====
/-
  The node masking, from blocks to the whole array. The grid has 50 points; point `t` reads rows
  `2000·t … 2000·t + 1999` of the feature array `x` (100000 × 128) and of the column `s` (100000 × 1), and writes the
  same rows of the output. Inside a block the body computes, at row `p` and feature `q`, `x[p, q] · s[p, 0]`: the
  column is broadcast along the features. The 50 blocks tile the output, so the array the region leaves is
  `Cert.Spec.maskRows x s`: entry `(r, q)` is `x[r, q] · s[r, 0]`.
-/
import proofs.«153527_j56281251446890_1_alg».proof.Proof.Gen.KernelIdeal.Frame
import proofs.«153527_j56281251446890_1_alg».proof.Proof.Spec
import proofs.«153527_j56281251446890_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MaskValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The body's result at an entry of the block -/

/-- The body's one store starts at row 0, feature 0 of the block. -/
theorem zero_offsets : (![0, 0] : Fin 2 → Nat) = fun _ => 0 := funext fun a => by fin_cases a <;> rfl

/-- At row `p` and feature `q` of the block the body's result is the row's entry times the row's entry of the
    column: the column block, cast to its own shape and broadcast along the features, reads `s[p, 0]` at `(p, q)`. -/
theorem masked_apply (x : Vec Ideal S2000x128 .f32) (s : Vec Ideal S2000x1 .f32) (p : Fin 2000) (q : Fin 128) :
    k0_pay1 x s (ix2 p q) = x (ix2 p q) * s (ix2 p (0 : Fin 1)) := by
  unfold k0_pay1
  rw [mulf_apply, shapeCast_self, broadcastTo_a1_ab_apply]

/-! ## The blocks' places in the arrays -/

/-- Decided over the 50 points: the row block and the column block of a point start at the same row block as its
    output block, the row and output blocks at feature block 0, the column block at column block 0; and the output's
    row block index is below 50. -/
theorem block_indices : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 49
    ∧ win0_2.index t (1 : Fin 2) = 0 :=
  (by decide +kernel : ∀ t : Fin grid0.N, _)

/-- Every one of the 50 row blocks of the output is some point's. -/
theorem block_onto : ∀ b : Fin 50, ∃ t : Fin cfg0.N, win0_2.index t = ![b.val, 0] :=
  (by decide +kernel : ∀ b : Fin 50, ∃ t : Fin grid0.N, win0_2.index t = ![b.val, 0])

/-! ## What a point writes back -/

/-- What point `t` writes back is block `t` of `maskRows x s`, `x` and `s` the two arrays as the region finds them:
    entry `(p, q)` of the block is entry `(2000·b + p, q)` of the arrays, `b` the point's row block, for the rows, the
    column (at column 0) and the output alike. -/
theorem flushed_eq (c : Dev nD) (t : Fin cfg0.N) :
    (dat0 (F := Ideal) V c).flushed 2 t
      = ((cfg0.win 2).blk t).view.read (Elt Ideal) (Cert.Spec.maskRows (V c main_arg0) (V c main_v2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S2000x1) zero_offsets]
  obtain ⟨e0, e1, e2, e3, e4, e5⟩ := block_indices t
  funext j
  obtain ⟨p, q, rfl⟩ : ∃ (p : Fin 2000) (q : Fin 128), j = ix2 p q := ⟨j 0, j 1, eq_ix2 j⟩
  refine (masked_apply (iblk0 V c 0 t) (iblk0 V c 1 t) p q).trans ?_
  have hrows : ((cfg0.win 0).blk t).view.emb (ix2 p q) = ((cfg0.win 2).blk t).view.emb (ix2 p q) := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * q.val = win0_2.index t (1 : Fin 2) * 128 + 1 * q.val; omega
  have hcol : ((cfg0.win 1).blk t).view.emb (ix2 p (0 : Fin 1))
      = ix2 (⟨((((cfg0.win 2).blk t).view.emb (ix2 p q)) 0).val, ((((cfg0.win 2).blk t).view.emb (ix2 p q)) 0).isLt⟩ : Fin 100000) (0 : Fin 1) := by
    funext a; apply Fin.ext
    match a with
    | ⟨0, _⟩ => show win0_1.index t (0 : Fin 2) * 2000 + 1 * p.val = win0_2.index t (0 : Fin 2) * 2000 + 1 * p.val; omega
    | ⟨1, _⟩ => show win0_1.index t (1 : Fin 2) * 1 + 1 * 0 = 0; omega
  exact congrArg₂ (fun a b : EReal => a * b) (congrArg (V c main_arg0) hrows) (congrArg (V c main_v2) hcol)

/-! ## The blocks tile the output -/

/-- An entry of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v3).slice (win0_2.rect t)).set ↔ _
  rw [View.set_slice_whole, Rect.mem_set_unit]
  exact Iff.rfl

/-- Every entry `(r, q)` of the output is in the block of the point whose row block is `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-! ## The array the region leaves -/

/-- After the region the output array is `maskRows x s`: entry `(r, q)` is `x[r, q] · s[r, 0]`. -/
theorem mask_final (c : Dev nD) :
    (Gen.dat0 (F := Ideal) V c).arrAt 2 cfg0.N = Cert.Spec.maskRows (V c main_arg0) (V c main_v2) :=
  (dat0 V c).arrAt_eq_of_cover 2 _ (fun t _ => flushed_eq V c t) cover

end Cert.KernelIdeal.MaskValue

end
-- ==== Proof.EdgeValue.lean ====
/-
  The hyperedge transform read as one whole-array function. Each of the five grid points takes a block of 4000
  hyperedge rows, multiplies it by the whole 128 x 128 weight matrix and scales every row by the reciprocal square
  root of that hyperedge's entry of the degree column; the blocks tile the 20000 rows, so the output array ends as
  `edgeMsg h w d`:  out[r, c] = (Σ_k h[r, k] · w[k, c]) · rsqrt(d[r, 0]).
-/
import proofs.«153527_j56281251446890_1_alg».proof.Proof.Gen.KernelIdeal.Frame
import proofs.«153527_j56281251446890_1_alg».proof.Proof.Spec
import proofs.«153527_j56281251446890_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeValue

open Idealize.ShloMosaic Idealize.ShloMosaic.TcCoe Idealize.SL.Sem Cert.KernelIdeal Cert.KernelIdeal.Gen
open Idealize.ShloMosaic.ValueIdx
open Idealize.ShloMosaic.Pipeline (Dat)

/-! ## The block product at an index -/

/-- The contraction of a 4000 x 128 block with the 128 x 128 matrix: rows times columns over the shared axis. -/
abbrev rowsByWeights : DotDims S4000x128 S128x128 S4000x128 := dot_S4000x128_S128x128_S4000x128_1_0_0_1_n_n

/-- The left operand's row is the output's row. -/
theorem lhs_row (i : S4000x128.Idx) (k : rowsByWeights.contr.Idx) : (rowsByWeights.lhsIdx i k 0).val = (i 0).val := by
  unfold DotDims.lhsIdx
  rw [dif_neg (show ¬(0 : Fin S4000x128.rank) ∈ rowsByWeights.lhsBatch by decide), dif_pos (show (0 : Fin S4000x128.rank) ∈ rowsByWeights.lhsNonContracting by decide)]
  rfl
/-- The left operand's column is the contraction index. -/
theorem lhs_col (i : S4000x128.Idx) (k : rowsByWeights.contr.Idx) : (rowsByWeights.lhsIdx i k 1).val = (k ⟨0, by decide⟩).val :=
  rowsByWeights.lhsIdx_val_of_single rfl i k
/-- The right operand's row is the contraction index. -/
theorem rhs_row (i : S4000x128.Idx) (k : rowsByWeights.contr.Idx) : (rowsByWeights.rhsIdx i k 0).val = (k ⟨0, by decide⟩).val :=
  rowsByWeights.rhsIdx_val_of_single rfl i k
/-- The right operand's column is the output's column. -/
theorem rhs_col (i : S4000x128.Idx) (k : rowsByWeights.contr.Idx) : (rowsByWeights.rhsIdx i k 1).val = (i 1).val := by
  unfold DotDims.rhsIdx
  rw [dif_neg (show ¬(1 : Fin S128x128.rank) ∈ rowsByWeights.rhsBatch by decide), dif_pos (show (1 : Fin S128x128.rank) ∈ rowsByWeights.rhsNonContracting by decide)]
  rfl

/-- The product into the zero accumulator, read at `(p, q)`: `Σ_k a[p, k] · b[k, q]`. -/
theorem product_apply (a : FVec Ideal S4000x128 .bf16) (b : FVec Ideal S128x128 .bf16) (p : Fin 4000) (q : Fin 128) :
    matmul (F := Ideal) rowsByWeights none a b (constant (F := Ideal) S4000x128 .f32 0x00000000#32) (ix2 p q)
      = ∑ k : Fin 128, a (ix2 p k) * b (ix2 k q) := by
  refine (Ideal.matmul_constant_zero_apply rowsByWeights none a b (ix2 p q)).trans ?_
  rw [← Equiv.sum_comp (contrEquiv1 rowsByWeights 128 rfl rfl).symm]
  refine Finset.sum_congr rfl fun k _ => ?_
  have hk := contrEquiv1_symm_val rowsByWeights 128 rfl rfl k
  have el : rowsByWeights.lhsIdx (ix2 p q) ((contrEquiv1 rowsByWeights 128 rfl rfl).symm k) = ix2 p k := funext fun ax => Fin.ext (by
    match ax with
    | ⟨0, _⟩ => exact lhs_row _ _
    | ⟨1, _⟩ => exact (lhs_col _ _).trans hk)
  have er : rowsByWeights.rhsIdx (ix2 p q) ((contrEquiv1 rowsByWeights 128 rfl rfl).symm k) = ix2 k q := funext fun ax => Fin.ext (by
    match ax with
    | ⟨0, _⟩ => exact (rhs_row _ _).trans hk
    | ⟨1, _⟩ => exact rhs_col _ _)
  rw [el, er]

/-! ## The payload at an index of the block -/

/-- What the body stores, read at `(p, q)` of the block: the product of the rows block with the weights, scaled by the
    reciprocal square root of the column block's entry of row `p`. -/
theorem payload_apply (x0 : Vec Ideal S4000x128 .f32) (x1 : Vec Ideal S128x128 .f32) (x2 : Vec Ideal S4000x1 .f32)
    (p : Fin 4000) (q : Fin 128) :
    k1_pay1 (F := Ideal) x0 x1 x2 (ix2 p q)
      = (∑ k : Fin 128, x0 (ix2 p k) * x1 (ix2 k q)) * Ideal.rsqrt (x2 (ix2 p (0 : Fin 1))) := by
  unfold k1_pay1
  refine (mulf_apply _ _ (ix2 p q)).trans ?_
  refine congrArg₂ (· * ·) ?_ ?_
  · refine (product_apply _ _ p q).trans ?_
    rw [shapeCast_self]
    rfl
  · refine (broadcastTo_a1_ab_apply _ broadcasts_S4000x1_S4000x128 p q).trans ?_
    rw [shapeCast_self]
    rfl

/-! ## One block of the output, from the blocks of the inputs -/

/-- The payload over blocks that are rows `4000 b …` of `h` and of `d` and the whole of `w`, read at an index of the
    block, is `edgeMsg h w d` at the index `4000 b` rows further down the array. -/
theorem block_apply (x0 : Vec Ideal S4000x128 .f32) (x1 : Vec Ideal S128x128 .f32) (x2 : Vec Ideal S4000x1 .f32)
    (h : S20000x128.Idx → EReal) (w : S128x128.Idx → EReal) (d : S20000x1.Idx → EReal) (b : ℕ)
    (hx0 : ∀ (x : S4000x128.Idx) (i : S20000x128.Idx), (i 0).val = b * 4000 + (x 0).val → (i 1).val = (x 1).val → x0 x = h i)
    (hx1 : x1 = w)
    (hx2 : ∀ (x : S4000x1.Idx) (i : S20000x1.Idx), (i 0).val = b * 4000 + (x 0).val → (i 1).val = (x 1).val → x2 x = d i)
    (y : S4000x128.Idx) (i : S20000x128.Idx) (hi0 : (i 0).val = b * 4000 + (y 0).val) (hi1 : (i 1).val = (y 1).val) :
    k1_pay1 (F := Ideal) x0 x1 x2 y = Cert.Spec.edgeMsg h w d i := by
  obtain ⟨p, q, rfl⟩ : ∃ (p : Fin 4000) (q : Fin 128), y = ix2 p q := ⟨y 0, y 1, eq_ix2 y⟩
  refine (payload_apply x0 x1 x2 p q).trans ?_
  subst hx1
  unfold Cert.Spec.edgeMsg
  refine congrArg₂ (· * ·) (Finset.sum_congr rfl fun k _ => congrArg₂ (· * ·) ?_ ?_) (congrArg Ideal.rsqrt ?_)
  · exact hx0 _ _ hi0 rfl
  · refine congrArg x1 ?_
    funext a; apply Fin.ext
    match a with
    | ⟨0, _⟩ => rfl
    | ⟨1, _⟩ => exact hi1.symm
  · exact hx2 _ _ hi0 rfl

/-! ## The blocks of the four windows over the grid -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices, decided over the five points: at point `t` the rows block, the column block and the output block
    are all the `t`-th along the rows; the weights' block index is `(0, 0)` at every point. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The rows block at point `t` is rows `4000 t … 4000 t + 3999` of the hyperedge features. -/
theorem rows_block_apply (c : Dev nD) (t : Fin cfg1.N) (x : S4000x128.Idx) (i : S20000x128.Idx)
    (hi0 : (i 0).val = t.val * 4000 + (x 0).val) (hi1 : (i 1).val = (x 1).val) :
    (iblk1 V c 0 t : Vec Ideal S4000x128 .f32) x = (V c main_v27 : S20000x128.Idx → Elt Ideal .f32) i := by
  obtain ⟨e0, e1, -⟩ := block_indices t
  unfold iblk1
  rw [View.read_apply]
  show V c main_v27 _ = V c main_v27 _
  refine congrArg (V c main_v27) ?_
  funext a; apply Fin.ext
  match a with
  | ⟨0, _⟩ => show win1_0.index t (0 : Fin 2) * 4000 + 1 * (x 0).val = (i 0).val; omega
  | ⟨1, _⟩ => show win1_0.index t (1 : Fin 2) * 128 + 1 * (x 1).val = (i 1).val; omega

/-- The weights' block is the whole matrix at every point. -/
theorem weights_block (c : Dev nD) (t : Fin cfg1.N) :
    (iblk1 V c 1 t : Vec Ideal S128x128 .f32) = (V c main_arg1 : S128x128.Idx → Elt Ideal .f32) := by
  obtain ⟨-, -, e0, e1, -⟩ := block_indices t
  funext x
  unfold iblk1
  rw [View.read_apply]
  show V c main_arg1 _ = V c main_arg1 _
  refine congrArg (V c main_arg1) ?_
  funext a; apply Fin.ext
  match a with
  | ⟨0, _⟩ => show win1_1.index t (0 : Fin 2) * 128 + 1 * (x 0).val = (x 0).val; omega
  | ⟨1, _⟩ => show win1_1.index t (1 : Fin 2) * 128 + 1 * (x 1).val = (x 1).val; omega

/-- The column block at point `t` is rows `4000 t … 4000 t + 3999` of the degree column. -/
theorem column_block_apply (c : Dev nD) (t : Fin cfg1.N) (x : S4000x1.Idx) (i : S20000x1.Idx)
    (hi0 : (i 0).val = t.val * 4000 + (x 0).val) (hi1 : (i 1).val = (x 1).val) :
    (iblk1 V c 2 t : Vec Ideal S4000x1 .f32) x = (V c main_v39 : S20000x1.Idx → Elt Ideal .f32) i := by
  obtain ⟨-, -, -, -, e0, e1, -⟩ := block_indices t
  unfold iblk1
  rw [View.read_apply]
  show V c main_v39 _ = V c main_v39 _
  refine congrArg (V c main_v39) ?_
  funext a; apply Fin.ext
  match a with
  | ⟨0, _⟩ => show win1_2.index t (0 : Fin 2) * 4000 + 1 * (x 0).val = (i 0).val; omega
  | ⟨1, _⟩ => show win1_2.index t (1 : Fin 2) * 1 + 1 * (x 1).val = (i 1).val; omega

/-! ## What each point writes back, and the array after the run -/

/-- What point `t` writes back is block `t` of `edgeMsg` of the arrays as the region finds them. -/
theorem flushed_eq (c : Dev nD) (t : Fin cfg1.N) :
    (dat1 (F := Ideal) V c).flushed 3 t
      = ((cfg1.win 3).blk t).view.read (Elt Ideal) (Cert.Spec.edgeMsg (V c main_v27) (V c main_arg1) (V c main_v39)) := by
  show (cfg1.win 3).cut (grid1.coords t) ((dat1 (F := Ideal) V c).after 3 t) = _
  rw [after1_3]
  unfold out1_3
  rw [View.canon_unit_zero zero_offsets]
  simp only [View.ld_unit_zero (S := S4000x128) zero_offsets, View.ld_unit_zero (S := S128x128) zero_offsets,
    View.ld_unit_zero (S := S4000x1) zero_offsets]
  obtain ⟨-, -, -, -, -, -, e0, e1⟩ := block_indices t
  funext j
  rw [View.read_apply]
  exact block_apply (iblk1 V c 0 t) (iblk1 V c 1 t) (iblk1 V c 2 t) (V c main_v27) (V c main_arg1) (V c main_v39) t.val
    (rows_block_apply V c t) (weights_block V c t) (column_block_apply V c t)
    ((cfg1.win 3).xinj (grid1.coords t) j) (((cfg1.win 3).blk t).view.emb j)
    (by show win1_3.index t (0 : Fin 2) * 4000 + 1 * (j 0).val = t.val * 4000 + (j 0).val; omega)
    (by show win1_3.index t (1 : Fin 2) * 128 + 1 * (j 1).val = (j 1).val; omega)

/-- An index of the array is in point `t`'s block iff each coordinate is in the block's range on its axis. -/
theorem mem_out_block (t : Fin cfg1.N) (i : S20000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v40).slice (win1_3.rect t)).set ↔ _
  rw [View.set_slice_whole, Rect.mem_set_unit]
  exact Iff.rfl

/-- The five blocks tile the array: row `r` is in the block of point `r / 4000`. -/
theorem cover (i : S20000x128.Idx) :
    ∃ t : Fin cfg1.N, (cfg1.win 3).flush t = true ∧ i ∈ ((cfg1.win 3).blk t).view.set := by
  have hN : cfg1.N = 5 := N_1
  have hi0 : (i 0).val < 20000 := (i 0).isLt
  have hi1 : (i 1).val < 128 := (i 1).isLt
  have ht : (i 0).val / 4000 < cfg1.N := lt_of_lt_of_eq (by omega : (i 0).val / 4000 < 5) hN.symm
  obtain ⟨-, -, -, -, -, -, e0, e1⟩ := block_indices ⟨(i 0).val / 4000, ht⟩
  refine ⟨⟨(i 0).val / 4000, ht⟩, flush1_3 _, ?_⟩
  rw [mem_out_block]
  intro a
  match a with
  | ⟨0, _⟩ => show win1_3.index ⟨(i 0).val / 4000, ht⟩ (0 : Fin 2) * 4000 ≤ (i 0).val ∧ (i 0).val < win1_3.index ⟨(i 0).val / 4000, ht⟩ (0 : Fin 2) * 4000 + 4000; rw [e0]; show (i 0).val / 4000 * 4000 ≤ (i 0).val ∧ (i 0).val < (i 0).val / 4000 * 4000 + 4000; omega
  | ⟨1, _⟩ => show win1_3.index ⟨(i 0).val / 4000, ht⟩ (1 : Fin 2) * 128 ≤ (i 1).val ∧ (i 1).val < win1_3.index ⟨(i 0).val / 4000, ht⟩ (1 : Fin 2) * 128 + 128; rw [e1]; omega

/-- THE ARRAY after the region: `edgeMsg` of the hyperedge features, the weights and the degree column as the region
    finds them. -/
theorem edge_final (c : Dev nD) :
    (dat1 (F := Ideal) V c).arrAt 3 cfg1.N = Cert.Spec.edgeMsg (V c main_v27) (V c main_arg1) (V c main_v39) :=
  (dat1 (F := Ideal) V c).arrAt_eq_of_cover 3 _ (fun t _ => flushed_eq V c t) (cover)

end Cert.KernelIdeal.EdgeValue

end
-- ==== Proof.NodeValue.lean ====
/-
  The node output, from blocks to the whole array. The grid has 50 points; point `t` reads rows
  `2000·t … 2000·t + 1999` of the aggregated messages `agg` (100000 × 128) and of the degree column `dv` (100000 × 1),
  the whole bias row `b` (1 × 128), and writes the same rows of the output. Inside a block the body computes, at row
  `p` and feature `q`, `rsqrt(dv[p, 0]) · agg[p, q] + b[0, q]`: the reciprocal square root of the column is broadcast
  along the features, the bias row along the rows. The 50 blocks tile the output, so the array the region leaves is
  `Cert.Spec.nodeOut agg dv b`: entry `(r, q)` is `rsqrt(dv[r, 0]) · agg[r, q] + b[0, q]`.
-/
import proofs.«153527_j56281251446890_1_alg».proof.Proof.Gen.KernelIdeal.Frame
import proofs.«153527_j56281251446890_1_alg».proof.Proof.Spec
import proofs.«153527_j56281251446890_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-! ## The body's result at an entry of the block -/

/-- The body's one store starts at row 0, feature 0 of the block. -/
theorem zero_offsets : (![0, 0] : Fin 2 → Nat) = fun _ => 0 := funext fun a => by fin_cases a <;> rfl

/-- At row `p` and feature `q` of the block the body's result is the reciprocal square root of the row's degree times
    the row's entry, plus the bias of the feature: the casts are of a shape to itself; the column of reciprocal square
    roots, broadcast along the features, reads its entry of row `p` at `(p, q)`; the bias row, broadcast along the
    rows, reads its entry of feature `q`. -/
theorem scaled_apply (dv : Vec Ideal S2000x1 .f32) (agg : Vec Ideal S2000x128 .f32) (b : Vec Ideal S1x128 .f32)
    (p : Fin 2000) (q : Fin 128) :
    k2_pay1 dv agg b (ix2 p q) = Ideal.rsqrt (dv (ix2 p (0 : Fin 1))) * agg (ix2 p q) + b (ix2 (0 : Fin 1) q) := by
  unfold k2_pay1
  rw [addf_apply, mulf_apply, shapeCast_self, shapeCast_self, shapeCast_self, broadcastTo_a1_ab_apply,
    broadcastTo_1b_ab_apply]
  rfl

/-! ## The blocks' places in the arrays -/

/-- Decided over the 50 points: the row block and the column block of a point start at the same row block as its
    output block, the row and output blocks at feature block 0, the column block at column block 0; the bias block is
    block (0, 0) at every point; and the output's row block index is below 50. -/
theorem block_indices : ∀ t : Fin cfg2.N, win2_0.index t (0 : Fin 2) = win2_3.index t (0 : Fin 2)
    ∧ win2_0.index t (1 : Fin 2) = win2_3.index t (1 : Fin 2)
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (0 : Fin 2) ≤ 49
    ∧ win2_3.index t (1 : Fin 2) = 0 :=
  (by decide +kernel : ∀ t : Fin grid2.N, _)

/-- Every one of the 50 row blocks of the output is some point's. -/
theorem block_onto : ∀ r : Fin 50, ∃ t : Fin cfg2.N, win2_3.index t = ![r.val, 0] :=
  (by decide +kernel : ∀ r : Fin 50, ∃ t : Fin grid2.N, win2_3.index t = ![r.val, 0])

/-! ## What a point writes back -/

/-- What point `t` writes back is block `t` of `nodeOut agg dv b`, the three arrays as the region finds them: entry
    `(p, q)` of the block is entry `(2000·r + p, q)` of the arrays, `r` the point's row block, for the rows, the
    column (at column 0) and the output alike; the bias block is the whole bias row. -/
theorem flushed_eq (c : Dev nD) (t : Fin cfg2.N) :
    (dat2 (F := Ideal) V c).flushed 3 t
      = ((cfg2.win 3).blk t).view.read (Elt Ideal)
          (Cert.Spec.nodeOut (V c main_v50) (V c main_v51) (V c main_v52)) := by
  show (cfg2.win 3).cut (grid2.coords t) ((dat2 V c).after 3 t) = _
  rw [after2_3]
  unfold out2_3
  rw [View.canon_unit_zero zero_offsets]
  simp only [View.ld_unit_zero (S := S2000x128) zero_offsets, View.ld_unit_zero (S := S2000x1) zero_offsets,
    View.ld_unit_zero (S := S1x128) zero_offsets]
  obtain ⟨e0, e1, e2, e3, e4, e5, e6, e7⟩ := block_indices t
  funext j
  obtain ⟨p, q, rfl⟩ : ∃ (p : Fin 2000) (q : Fin 128), j = ix2 p q := ⟨j 0, j 1, eq_ix2 j⟩
  refine (scaled_apply (iblk2 V c 1 t) (iblk2 V c 0 t) (iblk2 V c 2 t) p q).trans ?_
  have hrows : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * q.val = win2_3.index t (1 : Fin 2) * 128 + 1 * q.val; omega
  have hcol : ((cfg2.win 1).blk t).view.emb (ix2 p (0 : Fin 1))
      = ix2 (⟨((((cfg2.win 3).blk t).view.emb (ix2 p q)) 0).val, ((((cfg2.win 3).blk t).view.emb (ix2 p q)) 0).isLt⟩ : Fin 100000) (0 : Fin 1) := by
    funext a; apply Fin.ext
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  have hbias : ((cfg2.win 2).blk t).view.emb (ix2 (0 : Fin 1) q)
      = ix2 (0 : Fin 1) (⟨((((cfg2.win 3).blk t).view.emb (ix2 p q)) 1).val, ((((cfg2.win 3).blk t).view.emb (ix2 p q)) 1).isLt⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  exact congrArg₂ (fun x y : EReal => x + y)
    (congrArg₂ (fun x y : EReal => Ideal.rsqrt x * y) (congrArg (V c main_v51) hcol) (congrArg (V c main_v50) hrows))
    (congrArg (V c main_v52) hbias)

/-! ## The blocks tile the output -/

/-- An entry of the output array is in point `t`'s block iff each coordinate is in the block's range on its axis. -/
theorem mem_blk (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v53).slice (win2_3.rect t)).set ↔ _
  rw [View.set_slice_whole, Rect.mem_set_unit]
  exact Iff.rfl

/-- Every entry `(r, q)` of the output is in the block of the point whose row block is `r / 2000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := block_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-! ## The array the region leaves -/

/-- After the region the output array is `nodeOut agg dv b`: entry `(r, q)` is `rsqrt(dv[r, 0]) · agg[r, q] + b[0, q]`. -/
theorem node_final (c : Dev nD) :
    (Gen.dat2 (F := Ideal) V c).arrAt 3 cfg2.N = Cert.Spec.nodeOut (V c main_v50) (V c main_v51) (V c main_v52) :=
  (dat2 V c).arrAt_eq_of_cover 3 _ (fun t _ => flushed_eq V c t) cover

end Cert.KernelIdeal.NodeValue

end
-- ==== Proof.Fold.lean ====
/-
  The idealized kernel's result, read back through @main.

  @main is: a stretch of host operations (the kept-node column), region 0 (the masking), a stretch (node degrees, hyperedge
  sizes, the hyperedge means and normalizer: gathers and scatter-additions along the incidence list), region 1 (the
  hyperedge messages), a stretch (the messages gathered and summed into the nodes), region 2 (the output). Each stretch's
  result is read off its operations over ANY buffer contents `W` whose few operand buffers are given; each region's
  output array is its stage's function (`MaskValue`, `EdgeValue`, `NodeValue`) of the arrays it finds. Stage by stage the
  buffers hold the reference's own stages (`Cert.ReferenceIdeal.Read.val_…`) of the arguments: the host operations are the
  same on both sides, and the three dense stages are `Cert.ReferenceIdeal.Stages`.
-/
import proofs.«153527_j56281251446890_1_alg».proof.Proof.Gen.KernelIdeal.Frame
import proofs.«153527_j56281251446890_1_alg».proof.Proof.Gen.ReferenceIdeal.Read
import proofs.«153527_j56281251446890_1_alg».proof.Proof.Spec
import proofs.«153527_j56281251446890_1_alg».proof.Proof.RefStages
import proofs.«153527_j56281251446890_1_alg».proof.Proof.LibKeepdims
import proofs.«153527_j56281251446890_1_alg».proof.Proof.MaskValue
import proofs.«153527_j56281251446890_1_alg».proof.Proof.EdgeValue
import proofs.«153527_j56281251446890_1_alg».proof.Proof.NodeValue
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo
open Idealize.ShloMosaic.ValueIdx Cert.KernelIdeal Cert.KernelIdeal.Gen
open Cert.ReferenceIdeal.Read (val_main_v1 val_main_v4 val_main_v10 val_main_v28 val_main_v39 val_main_v44 val_main_v54 val_main_v61)

/-! ## The host stretches over any buffer contents -/

section Stretch

variable (W : Valuation τ sig (Elt Ideal))
variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 x4 : (⟨S1600000, .i32⟩ : BufTy).Contents (Elt Ideal))
  (x5 : (⟨S100000, .i1⟩ : BufTy).Contents (Elt Ideal))

/-- The first stretch leaves the arguments alone. -/
theorem pre_arg0 : StableHlo.after hostOps0 W (Proc.devRef .tc main_arg0) = W (Proc.devRef .tc main_arg0) := by after_results
theorem pre_arg1 : StableHlo.after hostOps0 W (Proc.devRef .tc main_arg1) = W (Proc.devRef .tc main_arg1) := by after_results
theorem pre_arg2 : StableHlo.after hostOps0 W (Proc.devRef .tc main_arg2) = W (Proc.devRef .tc main_arg2) := by after_results
theorem pre_arg3 : StableHlo.after hostOps0 W (Proc.devRef .tc main_arg3) = W (Proc.devRef .tc main_arg3) := by after_results
theorem pre_arg4 : StableHlo.after hostOps0 W (Proc.devRef .tc main_arg4) = W (Proc.devRef .tc main_arg4) := by after_results

/-- The first stretch's result: the kept-node vector (the mask negated, as floats) as a `[100000, 1]` column. -/
theorem pre_column (h5 : W (Proc.devRef .tc main_arg5) = x5) :
    StableHlo.after hostOps0 W (Proc.devRef .tc main_v2)
      = shapeCast S100000x1 (val_main_v1 (F := Ideal) x5) shapeCasts_S100000_S100000x1 := by
  after_results
  rw [h5]
  rfl

/-- The second stretch, from the masked features and the incidence list: the hyperedge means … -/
theorem mid_means (hx : W (Proc.devRef .tc main_v3) = val_main_v4 (F := Ideal) x0 x5)
    (h3 : W (Proc.devRef .tc main_arg3) = x3) (h4 : W (Proc.devRef .tc main_arg4) = x4) :
    StableHlo.after hostOps1 W (Proc.devRef .tc main_v27) = val_main_v28 (F := Ideal) x0 x3 x4 x5 := by
  after_results_simp
  rw [hx, h3, h4]
  rfl

/-- … the hyperedge normalizer as a `[20000, 1]` column … -/
theorem mid_normalizer (h3 : W (Proc.devRef .tc main_arg3) = x3) (h4 : W (Proc.devRef .tc main_arg4) = x4) :
    StableHlo.after hostOps1 W (Proc.devRef .tc main_v39)
      = shapeCast S20000x1 (val_main_v39 (F := Ideal) x3 x4) shapeCasts_S20000_S20000x1 := by
  after_results_simp
  rw [h3, h4]
  rfl

/-- … and the node degrees. -/
theorem mid_degrees (h3 : W (Proc.devRef .tc main_arg3) = x3) :
    StableHlo.after hostOps1 W (Proc.devRef .tc main_v9) = val_main_v10 (F := Ideal) x3 := by
  after_results_simp
  rw [h3]
  rfl

/-- The second stretch leaves the arguments alone. -/
theorem mid_arg1 : StableHlo.after hostOps1 W (Proc.devRef .tc main_arg1) = W (Proc.devRef .tc main_arg1) := by after_results_simp
theorem mid_arg2 : StableHlo.after hostOps1 W (Proc.devRef .tc main_arg2) = W (Proc.devRef .tc main_arg2) := by after_results_simp
theorem mid_arg3 : StableHlo.after hostOps1 W (Proc.devRef .tc main_arg3) = W (Proc.devRef .tc main_arg3) := by after_results_simp
theorem mid_arg4 : StableHlo.after hostOps1 W (Proc.devRef .tc main_arg4) = W (Proc.devRef .tc main_arg4) := by after_results_simp

/-- The third stretch, from the hyperedge messages and the incidence list: the messages summed into the nodes … -/
theorem post_aggregate (hm : W (Proc.devRef .tc main_v40) = val_main_v44 (F := Ideal) x0 x1 x3 x4 x5)
    (h3 : W (Proc.devRef .tc main_arg3) = x3) (h4 : W (Proc.devRef .tc main_arg4) = x4) :
    StableHlo.after hostOps2 W (Proc.devRef .tc main_v50) = val_main_v54 (F := Ideal) x0 x1 x3 x4 x5 := by
  after_results
  rw [hm, h3, h4]
  rfl

/-- … the node degrees as a `[100000, 1]` column … -/
theorem post_degrees (hd : W (Proc.devRef .tc main_v9) = val_main_v10 (F := Ideal) x3) :
    StableHlo.after hostOps2 W (Proc.devRef .tc main_v51)
      = shapeCast S100000x1 (val_main_v10 (F := Ideal) x3) shapeCasts_S100000_S100000x1 := by
  after_results
  rw [hd]
  rfl

/-- … and the bias as a `[1, 128]` row. -/
theorem post_bias (h2 : W (Proc.devRef .tc main_arg2) = x2) :
    StableHlo.after hostOps2 W (Proc.devRef .tc main_v52) = shapeCast S1x128 x2 shapeCasts_S128_S1x128 := by
  after_results
  rw [h2]
  rfl

end Stretch

/-! ## The fold through @main -/

variable (m : (ℓ : Loc nD τ sig) → Buf (Elt Ideal) ℓ) (ρ : Dev nD → PrngReg)

/-- The arguments as the first region finds them, and as it leaves them (it writes none of these). -/
theorem W1_arg0 (c : Dev nD) : W1 m ρ c (Proc.devRef .tc main_arg0) = m ((c : Thread nD τ).loc main_arg0) := pre_arg0 (W0 m ρ c)
theorem W2_arg1 (c : Dev nD) : W2 m ρ c (Proc.devRef .tc main_arg1) = m ((c : Thread nD τ).loc main_arg1) :=
  (W2_of_ne m ρ c main_arg1 (by decide)).trans (pre_arg1 (W0 m ρ c))
theorem W2_arg2 (c : Dev nD) : W2 m ρ c (Proc.devRef .tc main_arg2) = m ((c : Thread nD τ).loc main_arg2) :=
  (W2_of_ne m ρ c main_arg2 (by decide)).trans (pre_arg2 (W0 m ρ c))
theorem W2_arg3 (c : Dev nD) : W2 m ρ c (Proc.devRef .tc main_arg3) = m ((c : Thread nD τ).loc main_arg3) :=
  (W2_of_ne m ρ c main_arg3 (by decide)).trans (pre_arg3 (W0 m ρ c))
theorem W2_arg4 (c : Dev nD) : W2 m ρ c (Proc.devRef .tc main_arg4) = m ((c : Thread nD τ).loc main_arg4) :=
  (W2_of_ne m ρ c main_arg4 (by decide)).trans (pre_arg4 (W0 m ρ c))

/-- After region 0 its output array holds the reference's masked features. -/
theorem W2_v3 (c : Dev nD) : W2 m ρ c (Proc.devRef .tc main_v3)
    = val_main_v4 (F := Ideal) (m ((c : Thread nD τ).loc main_arg0)) (m ((c : Thread nD τ).loc main_arg5)) := by
  refine (W2_arr m ρ c 2).trans ((MaskValue.mask_final (V1 m ρ) c).trans ?_)
  rw [show V1 m ρ c main_arg0 = m ((c : Thread nD τ).loc main_arg0) from W1_arg0 m ρ c]
  refine Cert.ReferenceIdeal.Stages.mask_stage _ (m ((c : Thread nD τ).loc main_arg5)) _ fun p => ?_
  rw [show V1 m ρ c main_v2 = _ from pre_column (W0 m ρ c) (m ((c : Thread nD τ).loc main_arg5)) rfl]
  exact shapeCast_a_a1_apply _ _ p 0

/-- The arguments after the second stretch and region 1. -/
theorem W4_arg2 (c : Dev nD) : W4 m ρ c (Proc.devRef .tc main_arg2) = m ((c : Thread nD τ).loc main_arg2) :=
  (W4_of_ne m ρ c main_arg2 (by decide)).trans ((mid_arg2 (W2 m ρ c)).trans (W2_arg2 m ρ c))
theorem W4_arg3 (c : Dev nD) : W4 m ρ c (Proc.devRef .tc main_arg3) = m ((c : Thread nD τ).loc main_arg3) :=
  (W4_of_ne m ρ c main_arg3 (by decide)).trans ((mid_arg3 (W2 m ρ c)).trans (W2_arg3 m ρ c))
theorem W4_arg4 (c : Dev nD) : W4 m ρ c (Proc.devRef .tc main_arg4) = m ((c : Thread nD τ).loc main_arg4) :=
  (W4_of_ne m ρ c main_arg4 (by decide)).trans ((mid_arg4 (W2 m ρ c)).trans (W2_arg4 m ρ c))

/-- The node degrees, computed by the second stretch, are still there after region 1. -/
theorem W4_v9 (c : Dev nD) : W4 m ρ c (Proc.devRef .tc main_v9) = val_main_v10 (F := Ideal) (m ((c : Thread nD τ).loc main_arg3)) :=
  (W4_of_ne m ρ c main_v9 (by decide)).trans (mid_degrees (W2 m ρ c) _ (W2_arg3 m ρ c))

/-- After region 1 its output array holds the reference's hyperedge messages. -/
theorem W4_v40 (c : Dev nD) : W4 m ρ c (Proc.devRef .tc main_v40)
    = val_main_v44 (F := Ideal) (m ((c : Thread nD τ).loc main_arg0)) (m ((c : Thread nD τ).loc main_arg1))
        (m ((c : Thread nD τ).loc main_arg3)) (m ((c : Thread nD τ).loc main_arg4)) (m ((c : Thread nD τ).loc main_arg5)) := by
  refine (W4_arr m ρ c 3).trans ((EdgeValue.edge_final (V3 m ρ) c).trans ?_)
  rw [show V3 m ρ c main_v27 = _ from mid_means (W2 m ρ c) _ _ _ _ (W2_v3 m ρ c) (W2_arg3 m ρ c) (W2_arg4 m ρ c),
    show V3 m ρ c main_arg1 = _ from (mid_arg1 (W2 m ρ c)).trans (W2_arg1 m ρ c)]
  refine Cert.ReferenceIdeal.Stages.edge_stage _ _ _ _ _ _ fun p => ?_
  rw [show V3 m ρ c main_v39 = _ from mid_normalizer (W2 m ρ c) _ _ (W2_arg3 m ρ c) (W2_arg4 m ρ c)]
  exact shapeCast_a_a1_apply _ _ p 0

/-- The idealized kernel's result buffer holds the reference's last stage of the same arguments. -/
theorem W6_v53 (c : Dev nD) : W6 m ρ c (Proc.devRef .tc main_v53)
    = val_main_v61 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W6_arr m ρ c 3).trans ((NodeValue.node_final (V5 m ρ) c).trans ?_)
  rw [show V5 m ρ c main_v50 = _ from post_aggregate (W4 m ρ c) _ _ _ _ _ (W4_v40 m ρ c) (W4_arg3 m ρ c) (W4_arg4 m ρ c)]
  refine Cert.ReferenceIdeal.Stages.node_stage _ _ (m ((c : Thread nD τ).loc main_arg2)) _ _ _ _ _ (fun p => ?_) (fun q => ?_)
  · rw [show V5 m ρ c main_v51 = _ from post_degrees (W4 m ρ c) _ (W4_v9 m ρ c)]
    exact shapeCast_a_a1_apply _ _ p 0
  · rw [show V5 m ρ c main_v52 = _ from post_bias (W4 m ρ c) _ (W4_arg2 m ρ c)]
    exact shapeCast_a_1a_apply _ _ 0 q

end Cert.KernelIdeal.Fold

end
-- ==== Proof.lean ====
/-
  A hypergraph convolution on 100000 nodes and 20000 hyperedges with 128 features: knocked-out nodes are zeroed
  (`x = features · kept`), node features are averaged into hyperedges along the incidence list, the hyperedge features go
  through a weight matrix and are scaled by `rsqrt` of the hyperedge normalizer, the messages are summed back into the
  nodes and scaled by `rsqrt` of the node degree, plus a bias. The kernel computes the three dense stages (the masking, the
  matrix product with its row scaling, the final scaling with the bias) in three pallas regions and everything else —
  the gathers and the scatter-additions along the incidence list — with the same host operations as the reference.

  Over the extended reals the claim needs no algebra beyond reading both sides at an index: a change of float format is
  the identity, the kernel's matrix product into a zero accumulator and the host's `dot_general` are the same sum over
  the 128 contracted features, both `rsqrt`s are one function, and the gathers and scatter-additions are applied to
  equal operands on both sides. So the precondition (finite inputs) is never opened.

  * `Proof/Spec.lean`: the three dense stages as functions of whole arrays;
  * `Proof/MaskValue.lean`, `EdgeValue.lean`, `NodeValue.lean`: each region's output array is its stage's function of the
    arrays the region finds (blocks of 2000 or 4000 rows, one per grid point, tiling the array);
  * `Proof/RefStages.lean`: the reference's corresponding stages are the same functions;
  * `Proof/KernelRun.lean`: the kernel's run with its result named as the fold through @main;
  * `Proof/Fold.lean`: that fold, stage by stage, is the reference's last stage of the same arguments.
-/
import proofs.«153527_j56281251446890_1_alg».proof.Defs
import proofs.«153527_j56281251446890_1_alg».proof.Proof.Gen.Kernel
import proofs.«153527_j56281251446890_1_alg».proof.Proof.Gen.Kernel.Skeleton
import proofs.«153527_j56281251446890_1_alg».proof.Proof.Gen.Kernel.Launch
import proofs.«153527_j56281251446890_1_alg».proof.Proof.Gen.Kernel.Points
import proofs.«153527_j56281251446890_1_alg».proof.Proof.Gen.Kernel.Frame
import proofs.«153527_j56281251446890_1_alg».proof.Proof.Gen.KernelIdeal
import proofs.«153527_j56281251446890_1_alg».proof.Proof.Gen.KernelIdeal.Skeleton
import proofs.«153527_j56281251446890_1_alg».proof.Proof.Gen.KernelIdeal.Launch
import proofs.«153527_j56281251446890_1_alg».proof.Proof.Gen.KernelIdeal.Points
import proofs.«153527_j56281251446890_1_alg».proof.Proof.Gen.KernelIdeal.Frame
import proofs.«153527_j56281251446890_1_alg».proof.Proof.Gen.ReferenceIdeal
import proofs.«153527_j56281251446890_1_alg».proof.Proof.Gen.Pre_finite_inputs
import proofs.«153527_j56281251446890_1_alg».proof.Proof.Gen.ReferenceIdeal.Run
import proofs.«153527_j56281251446890_1_alg».proof.Proof.Gen.ReferenceIdeal.Read
import proofs.«153527_j56281251446890_1_alg».proof.Proof.KernelRun
import proofs.«153527_j56281251446890_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's last stage of the (equal) arguments in their result buffers. -/
theorem algebraic : Cert.algebraic_KernelIdeal_ReferenceIdeal := by
  intro m ρ m' ρ' _ hagree
  refine ⟨fun c => Cert.ReferenceIdeal.Read.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W6_v53 m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
